-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x1024 : Shape := ⟨2, ![1024, 1024]⟩
abbrev S512x1024 : Shape := ⟨2, ![512, 1024]⟩
abbrev S512 : Shape := ⟨1, ![512]⟩
abbrev S1024x512 : Shape := ⟨2, ![1024, 512]⟩
abbrev S512x1 : Shape := ⟨2, ![512, 1]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S512x1 : S512.ShapeCasts S512x1
  broadcasts_S512x1_S512x1024 : S512x1.Broadcasts S512x1024
  shapeCasts_S512_S1x512 : S512.ShapeCasts S1x512
  broadcasts_S1x512_S1024x512 : S1x512.Broadcasts S1024x512
  shapeCasts_S8192x4096_S4x2048x4096 : S8192x4096.ShapeCasts S4x2048x4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one visit of the body leaves behind, as pure functions of what it loaded.

  The body keeps a running [1024, 512] block in a scratch buffer. On the first visit along the contraction axis it
  stores the zero block and immediately accumulates into it; on later visits it accumulates into what the visit before
  left; on the last visit it also adds the bias row to the running block and stores that into the output block.
  Each lemma below reads the stores of one control case back as the arithmetic term of the loaded blocks.
-/
import proofs.«181020_j48576080118258_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle visit: the scratch ends at the accumulation step applied to what the visit before left. -/
theorem scratch_B (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x1024 .f32) (x1 : Vec F S512x1024 .i32) (x2 : Vec F S512 .f32) (x3 : Vec F S512 .f32) (xs0 : Vec F S1024x512 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread, View.ld_unit_zero (S := S1024x1024) hz2, View.ld_unit_zero (S := S512x1024) hz2, View.ld_unit_zero (S := S512) hz1, View.ld_unit_zero (S := S1024x512) hz2]

/-- The first visit: the zero block is stored, read back, and accumulated into. -/
theorem scratch_A (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x1024 .f32) (x1 : Vec F S512x1024 .i32) (x2 : Vec F S512 .f32) (x3 : Vec F S512 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz2, View.readCov_unit_zero (S := S1024x512) _ hz2]
  simp only [View.readAt_eq_ld, harg3.read_unread, harg4.read_unread, harg5.read_unread, harg6.read_unread, harg8.read_unread, View.ld_unit_zero (S := S1024x1024) hz2, View.ld_unit_zero (S := S512x1024) hz2, View.ld_unit_zero (S := S512) hz1, View.ld_unit_zero (S := S1024x512) hz2]

/-- The last visit: the scratch ends at the accumulation step, as on a middle visit. -/
theorem scratch_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .i32) (x2 : Vec F S512 .f32) (x3 : Vec F S512 .f32) (xs0 : Vec F S1024x512 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1024x1024) hz2, View.ld_unit_zero (S := S512x1024) hz2, View.ld_unit_zero (S := S512) hz1, View.ld_unit_zero (S := S1024x512) hz2]

/-- The last visit: the output block is the finished running block plus the bias row. -/
theorem out_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512 .f32) (harg5 : arg5.IsWhole) (arg6 : Memref sig .tc .vmem S512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .i32) (x2 : Vec F S512 .f32) (x3 : Vec F S512 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1024x512) _ hz2]
  simp only [View.readAt_eq_ld, harg3.read_unread, harg4.read_unread, harg5.read_unread, harg6.read_unread, harg8.read_unread, View.ld_unit_zero (S := S1024x1024) hz2, View.ld_unit_zero (S := S512x1024) hz2, View.ld_unit_zero (S := S512) hz1, View.ld_unit_zero (S := S1024x512) hz2]

end Cert.KernelIdeal.Acc

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Payload.lean ====
/-
  The body's three arithmetic terms read at one entry, over the extended reals.

  The reset block is zero everywhere. The accumulation step adds to the running block, at (p, q), the contraction over
  the 1024 columns kk of x[p, kk] * (w[q, kk] * s[q]): the weight block is converted, scaled row by row (the scale
  vector kept as a column and broadcast along the row), and contracted with the activation block along the last axis
  of both; changes of float format are the identity here. The epilogue adds the bias entry q to every row.
-/
import proofs.«181020_j48576080118258_1_alg».proof.Proof.Gen.KernelIdeal.Skeleton
import proofs.«181020_j48576080118258_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Acc

open Cert.KernelIdeal Cert.KernelIdeal.Gen

/-- The reset block is zero at every entry. -/
theorem pay1_apply (j : S1024x512.Idx) : k0_pay1 (F := Ideal) j = 0 := by
  unfold k0_pay1
  rw [shapeCast_self]
  exact Ideal.ofBits_zero_f32

/-- The left operand of the contraction at output entry j and contraction index kk is (j 0, kk). -/
theorem lhs_0 (j : S1024x512.Idx) (q : dot_S1024x1024_S512x1024_S1024x512_1_1_0_0_n_n.contr.Idx) : (dot_S1024x1024_S512x1024_S1024x512_1_1_0_0_n_n.lhsIdx j q 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_1 (j : S1024x512.Idx) (q : dot_S1024x1024_S512x1024_S1024x512_1_1_0_0_n_n.contr.Idx) : (dot_S1024x1024_S512x1024_S1024x512_1_1_0_0_n_n.lhsIdx j q 1).val = (q ⟨0, by decide⟩).val :=
  dot_S1024x1024_S512x1024_S1024x512_1_1_0_0_n_n.lhsIdx_val_of_single rfl j q
/-- The right operand is read at (j 1, kk). -/
theorem rhs_0 (j : S1024x512.Idx) (q : dot_S1024x1024_S512x1024_S1024x512_1_1_0_0_n_n.contr.Idx) : (dot_S1024x1024_S512x1024_S1024x512_1_1_0_0_n_n.rhsIdx j q 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_1 (j : S1024x512.Idx) (q : dot_S1024x1024_S512x1024_S1024x512_1_1_0_0_n_n.contr.Idx) : (dot_S1024x1024_S512x1024_S1024x512_1_1_0_0_n_n.rhsIdx j q 1).val = (q ⟨0, by decide⟩).val :=
  dot_S1024x1024_S512x1024_S1024x512_1_1_0_0_n_n.rhsIdx_val_of_single rfl j q

/-- The matrix product into the zero block, at (p, q): the sum over the shared last axis. -/
theorem matmul_apply (l : FVec Ideal S1024x1024 .bf16) (r : FVec Ideal S512x1024 .bf16) (p : Fin 1024) (q : Fin 512) :
    matmul dot_S1024x1024_S512x1024_S1024x512_1_1_0_0_n_n none l r (constant (F := Ideal) S1024x512 .f32 0x00000000#32) (ix2 p q)
      = ∑ kk : Fin 1024, l (ix2 p kk) * r (ix2 q kk) := by
  show FloatOps.matmul dot_S1024x1024_S512x1024_S1024x512_1_1_0_0_n_n none l r (constant (F := Ideal) S1024x512 .f32 0x00000000#32) (ix2 p q) = _
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 p q) ((ValueIdx.contrEquiv1 dot_S1024x1024_S512x1024_S1024x512_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S512x1024_S1024x512_1_1_0_0_n_n.rhsIdx (ix2 p q) ((ValueIdx.contrEquiv1 dot_S1024x1024_S512x1024_S1024x512_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The accumulation step at (p, q). -/
theorem pay2_apply (x0 : Vec Ideal S1024x1024 .f32) (x1 : Vec Ideal S512x1024 .i32) (x2 : Vec Ideal S512 .f32)
    (acc : Vec Ideal S1024x512 .f32) (p : Fin 1024) (q : Fin 512) :
    k0_pay2 x0 x1 x2 acc (ix2 p q)
      = acc (ix2 p q) + ∑ kk : Fin 1024, x0 (ix2 p kk) * (FloatOps.sitofp (F := Ideal) .f32 (x1 (ix2 q kk)) * x2 (ix1 q)) := by
  unfold k0_pay2
  rw [shapeCast_self, shapeCast_self, addf_apply, matmul_apply]
  refine congrArg (acc (ix2 p q) + ·) (Finset.sum_congr rfl fun kk _ => ?_)
  rw [truncf_apply, truncf_apply, mulf_apply, sitofp_apply,
    Cert.Lib.Columns.broadcastTo_a1_ab_apply, Cert.Lib.Columns.shapeCast_a_a1_apply]

/-- The epilogue at (p, q): the bias entry q added. -/
theorem pay3_apply (v : Vec Ideal S1024x512 .f32) (b : Vec Ideal S512 .f32) (p : Fin 1024) (q : Fin 512) :
    k0_pay3 v b (ix2 p q) = v (ix2 p q) + b (ix1 q) := by
  unfold k0_pay3
  rw [addf_apply, broadcastTo_1b_ab_apply, shapeCast_a_1a_apply]

end Cert.KernelIdeal.Acc

end
-- ==== Proof.Spec.lean ====
/-
  The function both programs compute, and the one law of sums that joins them.

  With x an [8192, 4096] array of extended reals (the flattened activations), w a [4096, 4096] array (the integer
  weights already converted), s and b vectors of length 4096, entry (r, o) of the result is

      ( sum over k < 4096 of x[r, k] * (w[o, k] * s[o]) ) + b[o].

  The kernel reaches the sum in four steps of 1024 consecutive k, starting from zero; the reference takes it at once.
  Addition of extended reals is associative and zero is neutral, so the two agree whatever the entries are: no
  finiteness is needed. Arrays are read at natural-number coordinates (zero outside their extents) so that block
  offsets are plain arithmetic.
-/
import Idealize.ShloMosaic.PureOps.Ideal
import Idealize.ShloMosaic.Lib.ValueIdx

noncomputable section

namespace Cert.Spec

open Idealize.ShloMosaic Idealize.ShloMosaic.ValueIdx

/-- A rank-2 array read at natural-number coordinates; zero outside the array. -/
def at2 {n0 n1 : ℕ} (X : (⟨2, ![n0, n1]⟩ : Shape).Idx → EReal) (r k : ℕ) : EReal :=
  if h : r < n0 ∧ k < n1 then X (ix2 ⟨r, h.1⟩ ⟨k, h.2⟩) else 0

/-- A vector read at a natural-number coordinate; zero outside. -/
def at1 {n : ℕ} (X : (⟨1, ![n]⟩ : Shape).Idx → EReal) (o : ℕ) : EReal :=
  if h : o < n then X (ix1 ⟨o, h⟩) else 0

/-- An entry of the array is the natural-number read at its coordinates. -/
theorem at2_of {n0 n1 : ℕ} (X : (⟨2, ![n0, n1]⟩ : Shape).Idx → EReal) (j : (⟨2, ![n0, n1]⟩ : Shape).Idx) (r k : ℕ)
    (h0 : (j 0).val = r) (h1 : (j 1).val = k) : X j = at2 X r k := by
  subst h0 h1
  unfold at2
  rw [dif_pos ⟨(j 0).isLt, (j 1).isLt⟩]
  exact congrArg X (eq_ix2 j)

/-- An entry of the vector is the natural-number read at its coordinate. -/
theorem at1_of {n : ℕ} (X : (⟨1, ![n]⟩ : Shape).Idx → EReal) (j : (⟨1, ![n]⟩ : Shape).Idx) (o : ℕ)
    (h0 : (j 0).val = o) : X j = at1 X o := by
  subst h0
  unfold at1
  rw [dif_pos (show (j 0).val < n from (j 0).isLt)]
  exact congrArg X (eq_ix1 j)

/-- One product of the contraction: x[r, k] * (w[o, k] * s[o]). -/
def term (x w : ℕ → ℕ → EReal) (s : ℕ → EReal) (r o k : ℕ) : EReal := x r k * (w o k * s o)

/-- The contraction restricted to the n-th run of 1024 consecutive k. -/
def blockSum (x w : ℕ → ℕ → EReal) (s : ℕ → EReal) (r o n : ℕ) : EReal :=
  ∑ kk ∈ Finset.range 1024, term x w s r o (1024 * n + kk)

/-- The running value after n runs, starting from zero and adding one run at a time. -/
def partialSum (x w : ℕ → ℕ → EReal) (s : ℕ → EReal) (r o : ℕ) : ℕ → EReal
  | 0 => 0
  | n + 1 => partialSum x w s r o n + blockSum x w s r o n

/-- Four runs of 1024 are the whole contraction over 4096. -/
theorem partialSum_four (x w : ℕ → ℕ → EReal) (s : ℕ → EReal) (r o : ℕ) :
    partialSum x w s r o 4 = ∑ k ∈ Finset.range 4096, term x w s r o k := by
  have e : (4096 : ℕ) = 1024 + 1024 + 1024 + 1024 := rfl
  rw [e, Finset.sum_range_add, Finset.sum_range_add, Finset.sum_range_add]
  show (((0 + blockSum x w s r o 0) + blockSum x w s r o 1) + blockSum x w s r o 2) + blockSum x w s r o 3 = _
  rw [zero_add]
  unfold blockSum
  congr 1

/-- The result entry at natural-number coordinates. -/
def result (x w : ℕ → ℕ → EReal) (s b : ℕ → EReal) (r o : ℕ) : EReal :=
  (∑ k ∈ Finset.range 4096, term x w s r o k) + b o

end Cert.Spec

end
-- ==== Proof.Blocks.lean ====
/-
  The blocks the body sees, read at one entry from the arrays the region finds.

  Grid point t stands for the triple (i, j, k) = (t / 32, t / 4 mod 8, t mod 4): i the row block of 1024 rows,
  j the block of 512 output channels, k the run of 1024 columns being contracted. The activation block at t is rows
  1024 i .. and columns 1024 k ..; the weight block is rows 512 j .. and columns 1024 k ..; the scale and bias blocks
  are entries 512 j ..; the output block is rows 1024 i .. and columns 512 j ... Every array is read at
  natural-number coordinates, the integer weights already converted to extended reals.
-/
import proofs.«181020_j48576080118258_1_alg».proof.Proof.Gen.KernelIdeal.Frame
import proofs.«181020_j48576080118258_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (c : Dev nD)

/-- The flattened activations the region finds, at natural-number coordinates. -/
def xN : ℕ → ℕ → EReal := Cert.Spec.at2 (V m c main_v0 : S8192x4096.Idx → EReal)
/-- The weights, converted, at natural-number coordinates. -/
def wN : ℕ → ℕ → EReal :=
  Cert.Spec.at2 (fun j => FloatOps.sitofp (F := Ideal) .f32 ((V m c main_arg1 : S4096x4096.Idx → BitVec 32) j) : S4096x4096.Idx → EReal)
/-- The scales. -/
def sN : ℕ → EReal := Cert.Spec.at1 (V m c main_arg2 : S4096.Idx → EReal)
/-- The bias. -/
def bN : ℕ → EReal := Cert.Spec.at1 (V m c main_arg3 : S4096.Idx → EReal)

/-- Where each window's block sits at grid point t, in units of blocks. -/
theorem idx_facts : ∀ t : Fin cfg0.N,
    win0_0.index t 0 = t.val / 32 ∧ win0_0.index t 1 = t.val % 4
    ∧ win0_1.index t 0 = t.val / 4 % 8 ∧ win0_1.index t 1 = t.val % 4
    ∧ win0_2.index t 0 = t.val / 4 % 8 ∧ win0_3.index t 0 = t.val / 4 % 8
    ∧ win0_4.index t 0 = t.val / 32 ∧ win0_4.index t 1 = t.val / 4 % 8 :=
  (by decide +kernel : ∀ t : Fin grid0.N,
    win0_0.index t 0 = t.val / 32 ∧ win0_0.index t 1 = t.val % 4
    ∧ win0_1.index t 0 = t.val / 4 % 8 ∧ win0_1.index t 1 = t.val % 4
    ∧ win0_2.index t 0 = t.val / 4 % 8 ∧ win0_3.index t 0 = t.val / 4 % 8
    ∧ win0_4.index t 0 = t.val / 32 ∧ win0_4.index t 1 = t.val / 4 % 8)

/-- The activation block at t, entry (p, kk). -/
theorem x_blk (t : Fin cfg0.N) (p kk : Fin 1024) :
    (iblk m c 0 t : Vec Ideal S1024x1024 .f32) (ix2 p kk) = xN m c (t.val / 32 * 1024 + p.val) (1024 * (t.val % 4) + kk.val) := by
  have hi := idx_facts t
  unfold iblk
  rw [View.read_apply]
  show (V m c main_v0 : S8192x4096.Idx → EReal) _ = _
  refine Cert.Spec.at2_of _ _ _ _ ?_ ?_
  · show win0_0.index t 0 * 1024 + 1 * p.val = _
    rw [hi.1]; omega
  · show win0_0.index t 1 * 1024 + 1 * kk.val = _
    rw [hi.2.1]; omega

/-- The weight block at t, converted, entry (q, kk). -/
theorem w_blk (t : Fin cfg0.N) (q : Fin 512) (kk : Fin 1024) :
    FloatOps.sitofp (F := Ideal) .f32 ((iblk m c 1 t : Vec Ideal S512x1024 .i32) (ix2 q kk))
      = wN m c (t.val / 4 % 8 * 512 + q.val) (1024 * (t.val % 4) + kk.val) := by
  have hi := idx_facts t
  unfold iblk
  rw [View.read_apply]
  refine Cert.Spec.at2_of (fun j => FloatOps.sitofp (F := Ideal) .f32 ((V m c main_arg1 : S4096x4096.Idx → BitVec 32) j)) _ _ _ ?_ ?_
  · show win0_1.index t 0 * 512 + 1 * q.val = _
    rw [hi.2.2.1]; omega
  · show win0_1.index t 1 * 1024 + 1 * kk.val = _
    rw [hi.2.2.2.1]; omega

/-- The scale block at t, entry q. -/
theorem s_blk (t : Fin cfg0.N) (q : Fin 512) :
    (iblk m c 2 t : Vec Ideal S512 .f32) (ix1 q) = sN m c (t.val / 4 % 8 * 512 + q.val) := by
  have hi := idx_facts t
  unfold iblk
  rw [View.read_apply]
  show (V m c main_arg2 : S4096.Idx → EReal) _ = _
  refine Cert.Spec.at1_of _ _ _ ?_
  show win0_2.index t 0 * 512 + 1 * q.val = _
  rw [hi.2.2.2.2.1]; omega

/-- The bias block at t, entry q. -/
theorem b_blk (t : Fin cfg0.N) (q : Fin 512) :
    (iblk m c 3 t : Vec Ideal S512 .f32) (ix1 q) = bN m c (t.val / 4 % 8 * 512 + q.val) := by
  have hi := idx_facts t
  unfold iblk
  rw [View.read_apply]
  show (V m c main_arg3 : S4096.Idx → EReal) _ = _
  refine Cert.Spec.at1_of _ _ _ ?_
  show win0_3.index t 0 * 512 + 1 * q.val = _
  rw [hi.2.2.2.2.2.1]; omega

end Cert.KernelIdeal.Acc

end
-- ==== Proof.Invariant.lean ====
/-
  What the running block and the output block hold after each grid point.

  Grid point t is (i, j, k) = (t / 32, t / 4 mod 8, t mod 4), and k moves fastest, so the four visits of one output block
  are consecutive. After the visit with contraction run k the running block holds, at (p, q), the sum of the first
  k + 1 runs of 1024 products for row 1024 i + p and output channel 512 j + q, added in order starting from zero:
  the first visit starts from the zero block, every later one from what the visit before left (same i and j, since
  t and t - 1 differ only in k). On the last visit the output block is that sum of all four runs, which is the whole
  contraction over 4096, plus the bias entry.
-/
import proofs.«181020_j48576080118258_1_alg».proof.Proof.Pieces
import proofs.«181020_j48576080118258_1_alg».proof.Proof.Payload
import proofs.«181020_j48576080118258_1_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec

variable (m : (ℓ : Loc nD τ sig) → Buf (Elt Ideal) ℓ) (c : Dev nD)

/-- The accumulation step on the blocks of grid point t adds contraction run t mod 4. -/
theorem step_eq (t : Fin cfg0.N) (acc : Vec Ideal S1024x512 .f32) (p : Fin 1024) (q : Fin 512) :
    k0_pay2 (iblk m c 0 t) (iblk m c 1 t) (iblk m c 2 t) acc (ix2 p q)
      = acc (ix2 p q) + blockSum (xN m c) (wN m c) (sN m c) (t.val / 32 * 1024 + p.val) (t.val / 4 % 8 * 512 + q.val) (t.val % 4) := by
  refine (pay2_apply (iblk m c 0 t) (iblk m c 1 t) (iblk m c 2 t) acc p q).trans ?_
  refine congrArg (acc (ix2 p q) + ·) ?_
  unfold blockSum
  rw [← Fin.sum_univ_eq_sum_range (fun kk => term (xN m c) (wN m c) (sN m c) (t.val / 32 * 1024 + p.val) (t.val / 4 % 8 * 512 + q.val) (1024 * (t.val % 4) + kk)) 1024]
  refine Finset.sum_congr rfl fun kk _ => ?_
  unfold term
  exact congrArg₂ (· * ·) (x_blk m c t p kk) (congrArg₂ (· * ·) (w_blk m c t q kk) (s_blk m c t q))

/-- After grid point n the running block holds the first n mod 4 + 1 contraction runs, added in order from zero. -/
theorem scratch_inv (n : ℕ) : ∀ (hn : n < cfg0.N) (p : Fin 1024) (q : Fin 512),
    (outsAt0 m c n hn).2 (ix2 p q)
      = partialSum (xN m c) (wN m c) (sN m c) (n / 32 * 1024 + p.val) (n / 4 % 8 * 512 + q.val) (n % 4 + 1) := by
  induction n using Nat.strong_induction_on with
  | _ n ih =>
    intro hn p q
    have hN : n < 256 := lt_of_lt_of_eq hn (show cfg0.N = 256 from N_0)
    by_cases h0 : n % 4 = 0
    · have h1 : ¬ n % 4 = 3 := by omega
      rw [outsAt0_A m c ⟨n, hn⟩ h0 h1]
      dsimp only
      rw [scratch_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)]
      refine (step_eq m c ⟨n, hn⟩ (k0_pay1 (F := Ideal)) p q).trans ?_
      rw [pay1_apply]
      show 0 + blockSum (xN m c) (wN m c) (sN m c) (n / 32 * 1024 + p.val) (n / 4 % 8 * 512 + q.val) (n % 4) = _
      rw [h0]
      rfl
    · have hprev : (outsAt0 m c (n - 1) (Nat.lt_of_le_of_lt (Nat.sub_le _ _) hn)).2 (ix2 p q)
          = partialSum (xN m c) (wN m c) (sN m c) (n / 32 * 1024 + p.val) (n / 4 % 8 * 512 + q.val) (n % 4) := by
        refine (ih (n - 1) (by omega) _ p q).trans ?_
        have e1 : (n - 1) / 32 = n / 32 := by omega
        have e2 : (n - 1) / 4 % 8 = n / 4 % 8 := by omega
        have e3 : (n - 1) % 4 + 1 = n % 4 := by omega
        rw [e1, e2, e3]
      by_cases h1 : n % 4 = 3
      · rw [outsAt0_C m c ⟨n, hn⟩ h0 h1]
        dsimp only
        rw [scratch_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2]
        refine (step_eq m c ⟨n, hn⟩ _ p q).trans ?_
        show _ = partialSum (xN m c) (wN m c) (sN m c) (n / 32 * 1024 + p.val) (n / 4 % 8 * 512 + q.val) (n % 4)
          + blockSum (xN m c) (wN m c) (sN m c) (n / 32 * 1024 + p.val) (n / 4 % 8 * 512 + q.val) (n % 4)
        exact congrArg (· + _) hprev
      · rw [outsAt0_B m c ⟨n, hn⟩ h0 h1]
        dsimp only
        rw [scratch_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2]
        refine (step_eq m c ⟨n, hn⟩ _ p q).trans ?_
        show _ = partialSum (xN m c) (wN m c) (sN m c) (n / 32 * 1024 + p.val) (n / 4 % 8 * 512 + q.val) (n % 4)
          + blockSum (xN m c) (wN m c) (sN m c) (n / 32 * 1024 + p.val) (n / 4 % 8 * 512 + q.val) (n % 4)
        exact congrArg (· + _) hprev

/-- At a last visit (t mod 4 = 3) the output block holds the result: the whole contraction plus the bias. -/
theorem out_val (t : Fin cfg0.N) (h3 : t.val % 4 = 3) (p : Fin 1024) (q : Fin 512) :
    (outsAt0 m c t.val t.isLt).1 (ix2 p q)
      = result (xN m c) (wN m c) (sN m c) (bN m c) (t.val / 32 * 1024 + p.val) (t.val / 4 % 8 * 512 + q.val) := by
  have h0 : ¬ t.val % 4 = 0 := by omega
  have hN : t.val < 256 := lt_of_lt_of_eq t.isLt (show cfg0.N = 256 from N_0)
  rw [outsAt0_C m c t h0 h3]
  dsimp only
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2]
  refine (pay3_apply _ (iblk m c 3 t) p q).trans ?_
  unfold result
  refine congrArg₂ (· + ·) ?_ (b_blk m c t q)
  refine (step_eq m c t _ p q).trans ?_
  rw [← partialSum_four]
  show _ = partialSum (xN m c) (wN m c) (sN m c) (t.val / 32 * 1024 + p.val) (t.val / 4 % 8 * 512 + q.val) 3
    + blockSum (xN m c) (wN m c) (sN m c) (t.val / 32 * 1024 + p.val) (t.val / 4 % 8 * 512 + q.val) 3
  rw [h3]
  refine congrArg (· + _) ?_
  refine (scratch_inv m c (t.val - 1) _ p q).trans ?_
  have e1 : (t.val - 1) / 32 = t.val / 32 := by omega
  have e2 : (t.val - 1) / 4 % 8 = t.val / 4 % 8 := by omega
  have e3 : (t.val - 1) % 4 + 1 = 3 := by omega
  rw [e1, e2, e3]

end Cert.KernelIdeal.Acc

end
-- ==== Proof.Result.lean ====
/-
  The result as one function of the four argument arrays, and the flattening of the activations.

  Entry (a, b, o) of the result is the contraction over k < 4096 of X[a, b, k] * (W[o, k] * S[o]), plus B[o], with W the
  integer weights converted exactly. The kernel works on the activations flattened to [8192, 4096], row 2048 a + b of
  which is row (a, b); at natural-number coordinates the flattened form is this function.
-/
import proofs.«181020_j48576080118258_1_alg».proof.Proof.Spec

noncomputable section

namespace Cert.Spec

open Idealize.ShloMosaic Idealize.ShloMosaic.ValueIdx

/-- The result array. -/
def G (X : (⟨3, ![4, 2048, 4096]⟩ : Shape).Idx → EReal) (W : (⟨2, ![4096, 4096]⟩ : Shape).Idx → BitVec 32)
    (S B : (⟨1, ![4096]⟩ : Shape).Idx → EReal) : (⟨3, ![4, 2048, 4096]⟩ : Shape).Idx → EReal :=
  fun i => (∑ k : Fin 4096, X (ix3 (i 0) (i 1) k) * (FloatOps.sitofp (F := Ideal) .f32 (W (ix2 (i 2) k)) * S (ix1 (i 2))))
    + B (ix1 (i 2))

/-- The result at natural-number coordinates over the flattened activations is the result array at (a, b, o). -/
theorem result_eq_G (X : (⟨3, ![4, 2048, 4096]⟩ : Shape).Idx → EReal) (W : (⟨2, ![4096, 4096]⟩ : Shape).Idx → BitVec 32)
    (S B : (⟨1, ![4096]⟩ : Shape).Idx → EReal) (X2 : (⟨2, ![8192, 4096]⟩ : Shape).Idx → EReal)
    (hX : ∀ (a : Fin 4) (b : Fin 2048) (k : Fin 4096) (h : a.val * 2048 + b.val < 8192), X2 (ix2 ⟨a.val * 2048 + b.val, h⟩ k) = X (ix3 a b k))
    (a : Fin 4) (b : Fin 2048) (o : Fin 4096) :
    result (at2 X2) (at2 (fun j => FloatOps.sitofp (F := Ideal) .f32 (W j))) (at1 S) (at1 B) (a.val * 2048 + b.val) o.val
      = G X W S B (ix3 a b o) := by
  have hr : a.val * 2048 + b.val < 8192 := by have := a.isLt; have := b.isLt; omega
  unfold result G
  rw [← Fin.sum_univ_eq_sum_range (fun k => term (at2 X2) (at2 (fun j => FloatOps.sitofp (F := Ideal) .f32 (W j))) (at1 S) (a.val * 2048 + b.val) o.val k) 4096]
  refine congrArg₂ (· + ·) (Finset.sum_congr rfl fun k _ => ?_) ?_
  · unfold term
    refine congrArg₂ (· * ·) ?_ (congrArg₂ (· * ·) ?_ ?_)
    · exact (at2_of X2 (ix2 ⟨a.val * 2048 + b.val, hr⟩ k) _ _ rfl rfl).symm.trans (hX a b k hr)
    · exact (at2_of (fun j => FloatOps.sitofp (F := Ideal) .f32 (W j)) (ix2 o k) _ _ rfl rfl).symm
    · exact (at1_of S (ix1 o) _ rfl).symm
  · exact (at1_of B (ix1 o) _ rfl).symm

end Cert.Spec

end
-- ==== Proof.Final.lean ====
/-
  From the output blocks to the result array.

  The output block of (i, j) is written back once, after the visit with k = 3, and holds there the finished entries of
  rows 1024 i .. and channels 512 j ..; the 64 such blocks tile the [8192, 4096] array, so after the region the array
  holds, at (r, o), the whole contraction for row r and channel o plus the bias. The program then splits the row axis
  back into (4, 2048), and before the region it had flattened the activations the same way; with both layout steps
  read at an entry, the program's result is the result array of its four arguments.
-/
import proofs.«181020_j48576080118258_1_alg».proof.Proof.Invariant
import proofs.«181020_j48576080118258_1_alg».proof.Proof.Result
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec

variable (m : (ℓ : Loc nD τ sig) → Buf (Elt Ideal) ℓ) (ρ : Dev nD → PrngReg) (c : Dev nD)

/-- The [8192, 4096] array after the region, entry by entry. -/
def flatResult : S8192x4096.Idx → EReal :=
  fun j => result (xN m c) (wN m c) (sN m c) (bN m c) (j 0).val (j 1).val

/-- The same as contents of the region's output array. -/
abbrev outArr : Buf (Elt Ideal) ((c : Thread nD τ).loc main_v1) := flatResult m c

/-- What a last visit writes back is its block of the array. -/
theorem flushed_eq (t : Fin cfg0.N) (hf : (cfg0.win 4).flush t = true) :
    (dats m 0 c).flushed 4 t = ((cfg0.win 4).blk t).view.read (Elt Ideal) (outArr m c) := by
  have h3 : t.val % 4 = 3 := (flush0_4 t).mp hf
  have hi := idx_facts t
  show (cfg0.win 4).cut (grid0.coords t) ((dats m 0 c).after 4 t) = _
  rw [after0_4]
  funext y
  rw [View.read_apply]
  obtain ⟨p, q, rfl⟩ : ∃ (p : Fin 1024) (q : Fin 512), y = ix2 p q := ⟨y 0, y 1, eq_ix2 y⟩
  show (outsAt0 m c t.val t.isLt).1 (ix2 p q) = flatResult m c (((cfg0.win 4).blk t).view.emb (ix2 p q))
  rw [out_val m c t h3 p q]
  unfold flatResult
  have c0 : ((((cfg0.win 4).blk t).view.emb (ix2 p q)) 0).val = t.val / 32 * 1024 + p.val := by
    show win0_4.index t 0 * 1024 + 1 * p.val = _
    rw [hi.2.2.2.2.2.2.1]; omega
  have c1 : ((((cfg0.win 4).blk t).view.emb (ix2 p q)) 1).val = t.val / 4 % 8 * 512 + q.val := by
    show win0_4.index t 1 * 512 + 1 * q.val = _
    rw [hi.2.2.2.2.2.2.2]; omega
  rw [c0, c1]

/-- An entry of the array lies in the block of grid point t exactly when each coordinate lies in the block's range. -/
theorem mem_blk (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- Every entry is in the block written back at the last visit of its row block and channel block. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have ht : (i 0).val / 1024 * 32 + (i 1).val / 512 * 4 + 3 < cfg0.N := by rw [hN]; omega
  refine ⟨⟨(i 0).val / 1024 * 32 + (i 1).val / 512 * 4 + 3, ht⟩, (flush0_4 _).mpr (by show ((i 0).val / 1024 * 32 + (i 1).val / 512 * 4 + 3) % 4 = 3; omega), ?_⟩
  have hi := idx_facts ⟨(i 0).val / 1024 * 32 + (i 1).val / 512 * 4 + 3, ht⟩
  have f0 := hi.2.2.2.2.2.2.1
  have f1 := hi.2.2.2.2.2.2.2
  dsimp only at f0 f1
  rw [mem_blk]
  intro a
  match a with
  | ⟨0, _⟩ =>
    show win0_4.index _ 0 * 1024 ≤ (i 0).val ∧ (i 0).val < win0_4.index _ 0 * 1024 + 1024
    rw [f0]; omega
  | ⟨1, _⟩ =>
    show win0_4.index _ 1 * 512 ≤ (i 1).val ∧ (i 1).val < win0_4.index _ 1 * 512 + 512
    rw [f1]; omega

/-- The output array after the region. -/
theorem final_arr : (dats m 0 c).arrAt 4 cfg0.N = outArr m c :=
  (dats m 0 c).arrAt_eq_of_cover 4 (outArr m c) (flushed_eq m c) (cover)

end Cert.KernelIdeal.Acc

end
-- ==== Proof.Run.lean ====
/-
  The kernel program's run with its result named.

  Before the region the program flattens the activations [4, 2048, 4096] to [8192, 4096] (same row-major order, so row
  2048 a + b is row (a, b)); after it, it splits the rows of the output back. Reading both layout steps at an entry
  turns the array the region leaves into the result array of the four arguments, and the generated run of the program
  is restated with that result.
-/
import proofs.«181020_j48576080118258_1_alg».proof.Proof.Final
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec

variable (m : (ℓ : Loc nD τ sig) → Buf (Elt Ideal) ℓ) (ρ : Dev nD → PrngReg) (c : Dev nD)

/-- Before the region the activations are flattened in row-major order. -/
theorem V_flat : (V m c main_v0 : S8192x4096.Idx → EReal) = shapeCast S8192x4096 (m ((c : Thread nD τ).loc main_arg0)) shapeCasts_S4x2048x4096_S8192x4096 := by
  show StableHlo.after hostOps0 (fun b => m (c, b)) (Proc.devRef .tc main_v0) = _
  after_results
  rfl

/-- After the region the program's result is the output array with its rows split back into (4, 2048). -/
theorem tail_eq : Pipeline.afterTail₀ cfgs (dats m) 0 (V0 m) [hostOps1] c main_v2 = shapeCast S4x2048x4096 (outArr m c) shapeCasts_S8192x4096_S4x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1) = outArr m c :=
    (Pipeline.withArrays_arr spec0 launch0.win.arr_inj c _ _ 4).trans (final_arr m c)
  rw [e]
  rfl

/-- Row 2048 a + b of the flattened activations is row (a, b). -/
theorem flat_apply (X : S4x2048x4096.Idx → EReal) (a : Fin 4) (b : Fin 2048) (k : Fin 4096) (h : a.val * 2048 + b.val < 8192) :
    shapeCast S8192x4096 X shapeCasts_S4x2048x4096_S8192x4096 (ix2 ⟨a.val * 2048 + b.val, h⟩ k) = X (ix3 a b k) :=
  shapeCast_apply X _ _ _ (by rw [Shape.rowMajor_val_two, Shape.rowMajor_val_three]; rfl)

/-- The split output array is the result array of the four arguments. -/
theorem kernel_result : shapeCast S4x2048x4096 (outArr m c) shapeCasts_S8192x4096_S4x2048x4096
    = G (m ((c : Thread nD τ).loc main_arg0)) (m ((c : Thread nD τ).loc main_arg1)) (m ((c : Thread nD τ).loc main_arg2)) (m ((c : Thread nD τ).loc main_arg3)) := by
  funext i
  obtain ⟨a, b, o, rfl⟩ : ∃ (a : Fin 4) (b : Fin 2048) (o : Fin 4096), i = ix3 a b o := ⟨i 0, i 1, i 2, eq_ix3 i⟩
  have hr : a.val * 2048 + b.val < 8192 := by have := a.isLt; have := b.isLt; omega
  rw [shapeCast_apply (s := S8192x4096) (flatResult m c) shapeCasts_S8192x4096_S4x2048x4096 (ix3 a b o) (ix2 ⟨a.val * 2048 + b.val, hr⟩ o)
    (by rw [Shape.rowMajor_val_two, Shape.rowMajor_val_three]; rfl)]
  show result (xN m c) (wN m c) (sN m c) (bN m c) (a.val * 2048 + b.val) o.val = _
  unfold xN wN sN bN
  rw [V_flat, V_main_arg1 m c, V_main_arg2 m c, V_main_arg3 m c]
  exact result_eq_G _ _ _ _ _ (fun a b k h => flat_apply _ a b k h) a b o

/-- The program's run: it terminates with its result at the result array of the arguments, the arguments unchanged. -/
theorem run : θ_run defs (onTc (τ := τ) (main (F := Ideal))) ⟨m, fun _ => 0, ρ⟩ fun r => ∀ c : Dev nD,
      r.2.mem ((c.tc : Thread nD τ).loc main_v2) = G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 (Pipeline.mem_restRefs_of main_v2 (by decide) (by decide))).trans ((tail_eq m c).trans (kernel_result m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Acc

end
-- ==== Proof.Reference.lean ====
/-
  The reference computes the result array.

  Its convert, two broadcasts of the scale (to a column, then along the rows), product, contraction of the last axis of
  the activations with the last axis of the scaled weights, and broadcast bias added, read at entry (a, b, o), are the
  contraction over k of X[a, b, k] * (W[o, k] * S[o]) plus B[o].
-/
import proofs.«181020_j48576080118258_1_alg».proof.Proof.Gen.ReferenceIdeal.Read
import proofs.«181020_j48576080118258_1_alg».proof.Proof.Result

noncomputable section

open Idealize.ShloMosaic Idealize.ShloMosaic.ValueIdx

namespace Cert.ReferenceIdeal.RefValue

open Cert.ReferenceIdeal Cert.ReferenceIdeal.Read

/-- The last stage of the reference is the result array of its arguments. -/
theorem ref_eq (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = Cert.Spec.G x0 x1 x2 x3 := by
  funext i
  obtain ⟨a, b, o, rfl⟩ : ∃ (a : Fin 4) (b : Fin 2048) (o : Fin 4096), i = ix3 a b o := ⟨i 0, i 1, i 2, eq_ix3 i⟩
  have e1 : ∀ k : Fin 4096, lidx_main_v4 (ix3 a b o) k = ix3 a b k := fun k => funext fun d => Fin.ext (by
    match d with
    | ⟨0, _⟩ => rfl
    | ⟨1, _⟩ => rfl
    | ⟨2, _⟩ => rfl)
  have e2 : ∀ k : Fin 4096, ridx_main_v4 (ix3 a b o) k = ix2 o k := fun k => funext fun d => Fin.ext (by
    match d with
    | ⟨0, _⟩ => rfl
    | ⟨1, _⟩ => rfl)
  have e3 : ∀ k : Fin 4096, idx_main_v1 (idx_main_v2 (ix2 o k)) = ix1 o := fun k => funext fun d => Fin.ext (by
    match d with
    | ⟨0, _⟩ => rfl)
  have e4 : idx_main_v5 (idx_main_v6 (ix3 a b o)) = ix1 o := funext fun d => Fin.ext (by
    match d with
    | ⟨0, _⟩ => rfl)
  rw [val_main_v7_apply, val_main_v4_apply, val_main_v6_apply, val_main_v5_apply, e4]
  unfold Cert.Spec.G
  refine congrArg₂ (· + ·) (Finset.sum_congr rfl fun k _ => ?_) rfl
  rw [val_main_v3_apply, val_main_v0_apply, val_main_v2_apply, val_main_v1_apply, e1, e2, e3]
  rfl

end Cert.ReferenceIdeal.RefValue

end
-- ==== Proof.lean ====
/-
  The claim: a tiled, dequantizing matrix product against its one-line reference, over the extended reals.

  Both programs compute, for activations X [4, 2048, 4096], integer weights W [4096, 4096], scales S and bias B [4096],

      Y[a, b, o] = ( sum over k < 4096 of X[a, b, k] * (W[o, k] * S[o]) ) + B[o],

  the weights converted exactly. The kernel flattens the first two axes of X, tiles rows by 1024, output channels by 512
  and the contraction by 1024, and for each (row block, channel block) runs through the four contraction blocks in
  order: a scratch block is zeroed at the first, each visit adds its 1024 products to it, and the last visit adds the
  bias and writes the block out. The reference scales the weights and takes the whole contraction at once. Splitting
  a sum over 4096 into four consecutive runs of 1024 added in order from zero changes nothing, since addition of
  extended reals is associative with zero neutral; no entry needs to be finite for that, so the precondition is not
  opened. Changes of float format inside the kernel (the operands of the matrix unit are narrowed) are the identity
  over the extended reals.

  The generated modules give the three runs (the two kernel programs' frames, the reference's straight-line run).
  The modules beside this one hold the mathematics: what each control case of the body stores (Pieces), the body's
  arithmetic at an entry (Payload), the blocks at an entry (Blocks), the running sum after each grid point (Invariant),
  the tiling of the output and the two layout steps around the region (Final, Run), the reference read at an entry
  (Reference), and the law of sums (Spec, Result).
-/
import proofs.«181020_j48576080118258_1_alg».proof.Defs
import proofs.«181020_j48576080118258_1_alg».proof.Proof.Gen.Kernel
import proofs.«181020_j48576080118258_1_alg».proof.Proof.Gen.Kernel.Skeleton
import proofs.«181020_j48576080118258_1_alg».proof.Proof.Gen.Kernel.Launch
import proofs.«181020_j48576080118258_1_alg».proof.Proof.Gen.Kernel.Points
import proofs.«181020_j48576080118258_1_alg».proof.Proof.Gen.Kernel.Frame
import proofs.«181020_j48576080118258_1_alg».proof.Proof.Gen.KernelIdeal
import proofs.«181020_j48576080118258_1_alg».proof.Proof.Gen.KernelIdeal.Skeleton
import proofs.«181020_j48576080118258_1_alg».proof.Proof.Gen.KernelIdeal.Launch
import proofs.«181020_j48576080118258_1_alg».proof.Proof.Gen.KernelIdeal.Points
import proofs.«181020_j48576080118258_1_alg».proof.Proof.Gen.KernelIdeal.Frame
import proofs.«181020_j48576080118258_1_alg».proof.Proof.Gen.ReferenceIdeal
import proofs.«181020_j48576080118258_1_alg».proof.Proof.Gen.ReferenceIdeal.Run
import proofs.«181020_j48576080118258_1_alg».proof.Proof.Gen.ReferenceIdeal.Read
import proofs.«181020_j48576080118258_1_alg».proof.Proof.Gen.Pre_finite_inputs
import proofs.«181020_j48576080118258_1_alg».proof.Proof.Run
import proofs.«181020_j48576080118258_1_alg».proof.Proof.Reference
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the two kernel programs. -/
theorem preserves : Cert.preserves_Kernel_KernelIdeal := trivial

/-- Both programs end with the result array of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
